-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x978 : Shape := ⟨2, ![10000, 978]⟩
abbrev S2x320000 : Shape := ⟨2, ![2, 320000]⟩
abbrev S320000 : Shape := ⟨1, ![320000]⟩
abbrev S978x301 : Shape := ⟨2, ![978, 301]⟩
abbrev S301 : Shape := ⟨1, ![301]⟩
abbrev S_ : Shape := ⟨0, ![]⟩

class Facts : Prop where
  bcast_S_S10000x978 : S_.BroadcastsInDim S10000x978 (![] : Fin 0 → Fin S10000x978.rank)
  reducesTo_S10000x978_S_d0_1 : S10000x978.ReducesTo [0, 1] S_
  h_S_ : 0 < S_.numel
  bcast_S_S320000 : S_.BroadcastsInDim S320000 (![] : Fin 0 → Fin S320000.rank)
  reducesTo_S320000_S_d0 : S320000.ReducesTo [0] S_
  bcast_S_S978x301 : S_.BroadcastsInDim S978x301 (![] : Fin 0 → Fin S978x301.rank)
  reducesTo_S978x301_S_d0_1 : S978x301.ReducesTo [0, 1] S_
  bcast_S_S301 : S_.BroadcastsInDim S301 (![] : Fin 0 → Fin S301.rank)
  reducesTo_S301_S_d0 : S301.ReducesTo [0] S_

variable [Facts]

def fn_part1 {F : FTy → Type} [FloatOps F] (main_v13 : IVec S_ 1) (main_v16 : IVec S301 1) : IVec S_ 1 :=
  let main_c_5 : IVec S_ 1 := constantI S_ 1 1#1
  let main_v17 : IVec S_ 1 := (fun x v => Host.reduce IntOp.andi x v reducesTo_S301_S_d0 h_S_) main_v16 main_c_5
  let main_v18 : IVec S_ 1 := andi main_v13 main_v17
  main_v18

def fn {F : FTy → Type} [FloatOps F] (main_arg0 : FVec F S10000x978 .f32) (main_arg1 : IVec S2x320000 32) (main_arg2 : FVec F S320000 .f32) (main_arg3 : FVec F S978x301 .f32) (main_arg4 : FVec F S301 .f32) : IVec S_ 1 :=
  let main_v0 : FVec F S10000x978 .f32 := Host.absf main_arg0
  let main_cst : FVec F S_ .f32 := constant S_ .f32 0x7F800000#32
  let main_v1 : FVec F S10000x978 .f32 := broadcastInDim S10000x978 ![] bcast_S_S10000x978 main_cst
  let main_v2 : IVec S10000x978 1 := cmpf .olt main_v0 main_v1
  let main_c : IVec S_ 1 := constantI S_ 1 1#1
  let main_v3 : IVec S_ 1 := (fun x v => Host.reduce IntOp.andi x v reducesTo_S10000x978_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S978x301 .f32 := Host.absf main_arg3
  let main_cst_2 : FVec F S_ .f32 := constant S_ .f32 0x7F800000#32
  let main_v10 : FVec F S978x301 .f32 := broadcastInDim S978x301 ![] bcast_S_S978x301 main_cst_2
  let main_v11 : IVec S978x301 1 := cmpf .olt main_v9 main_v10
  let main_c_3 : IVec S_ 1 := constantI S_ 1 1#1
  let main_v12 : IVec S_ 1 := (fun x v => Host.reduce IntOp.andi x v reducesTo_S978x301_S_d0_1 h_S_) main_v11 main_c_3
  let main_v13 : IVec S_ 1 := andi main_v8 main_v12
  let main_v14 : FVec F S301 .f32 := Host.absf main_arg4
  let main_cst_4 : FVec F S_ .f32 := constant S_ .f32 0x7F800000#32
  let main_v15 : FVec F S301 .f32 := broadcastInDim S301 ![] bcast_S_S301 main_cst_4
  let main_v16 : IVec S301 1 := cmpf .olt main_v14 main_v15
  fn_part1 (F := F) main_v13 main_v16
-- ==== Kernel.lean ====
abbrev S10000x978 : Shape := ⟨2, ![10000, 978]⟩
abbrev S2x320000 : Shape := ⟨2, ![2, 320000]⟩
abbrev S320000 : Shape := ⟨1, ![320000]⟩
abbrev S978x301 : Shape := ⟨2, ![978, 301]⟩
abbrev S301 : Shape := ⟨1, ![301]⟩
abbrev S1x320000 : Shape := ⟨2, ![1, 320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x301 : Shape := ⟨2, ![10000, 301]⟩
abbrev S1000x978 : Shape := ⟨2, ![1000, 978]⟩
abbrev S1000x301 : Shape := ⟨2, ![1000, 301]⟩
abbrev S330000x301 : Shape := ⟨2, ![330000, 301]⟩
abbrev S1x301 : Shape := ⟨2, ![1, 301]⟩
abbrev S10000x4x301x12 : Shape := ⟨4, ![10000, 4, 301, 12]⟩
abbrev S8x301 : Shape := ⟨2, ![8, 301]⟩
abbrev S8x4x301x12 : Shape := ⟨4, ![8, 4, 301, 12]⟩
abbrev S8x1x301x1 : Shape := ⟨4, ![8, 1, 301, 1]⟩

abbrev nBuf : Space → Nat
  | .hbm => 66
  | .vmem => 10
  | .smem => 0
  | _ => 0

abbrev bufTy : (tb : Table) → Fin (tcTables nBuf tb) → BufTy
  | .hbm, ⟨0, _⟩ => ⟨S10000x978, .f32⟩
  | .hbm, ⟨1, _⟩ => ⟨S2x320000, .i32⟩
  | .hbm, ⟨2, _⟩ => ⟨S320000, .f32⟩
  | .hbm, ⟨3, _⟩ => ⟨S978x301, .f32⟩
  | .hbm, ⟨4, _⟩ => ⟨S301, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S10000, .i32⟩
  | .hbm, ⟨10, _⟩ => ⟨S330000, .i32⟩
  | .hbm, ⟨11, _⟩ => ⟨S330000, .i32⟩
  | .hbm, ⟨12, _⟩ => ⟨S_, .f32⟩
  | .hbm, ⟨13, _⟩ => ⟨S10000, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S330000, .i32⟩
  | .hbm, ⟨29, _⟩ => ⟨S330000, .i1⟩
  | .hbm, ⟨30, _⟩ => ⟨S_, .i32⟩
  | .hbm, ⟨31, _⟩ => ⟨S330000, .i32⟩
  | .hbm, ⟨32, _⟩ => ⟨S330000, .i32⟩
  | .hbm, ⟨33, _⟩ => ⟨S330000, .i32⟩
  | .hbm, ⟨34, _⟩ => ⟨S330000x1, .i32⟩
  | .hbm, ⟨35, _⟩ => ⟨S330000, .f32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S10000x301, .f32⟩
  | .hbm, ⟨48, _⟩ => ⟨S330000x1, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x301, .f32⟩
  | .hbm, ⟨58, _⟩ => ⟨S330000x301, .f32⟩
  | .hbm, ⟨59, _⟩ => ⟨S330000x301, .f32⟩
  | .hbm, ⟨60, _⟩ => ⟨S_, .f32⟩
  | .hbm, ⟨61, _⟩ => ⟨S10000x301, .f32⟩
  | .hbm, ⟨62, _⟩ => ⟨S330000x1, .i32⟩
  | .hbm, ⟨63, _⟩ => ⟨S10000x301, .f32⟩
  | .hbm, ⟨64, _⟩ => ⟨S1x301, .f32⟩
  | .hbm, ⟨65, _⟩ => ⟨S10000x4x301x12, .f32⟩
  | .local _ .vmem, ⟨0, _⟩ => ⟨S1000x978, .f32⟩
  | .local _ .vmem, ⟨1, _⟩ => ⟨S1000x978, .f32⟩
  | .local _ .vmem, ⟨2, _⟩ => ⟨S978x301, .f32⟩
  | .local _ .vmem, ⟨3, _⟩ => ⟨S1000x301, .f32⟩
  | .local _ .vmem, ⟨4, _⟩ => ⟨S1000x301, .f32⟩
  | .local _ .vmem, ⟨5, _⟩ => ⟨S8x301, .f32⟩
  | .local _ .vmem, ⟨6, _⟩ => ⟨S8x301, .f32⟩
  | .local _ .vmem, ⟨7, _⟩ => ⟨S1x301, .f32⟩
  | .local _ .vmem, ⟨8, _⟩ => ⟨S8x4x301x12, .f32⟩
  | .local _ .vmem, ⟨9, _⟩ => ⟨S8x4x301x12, .f32⟩
  | _, _ => ⟨S10000x978, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x978 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S978x301 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x301 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8x301 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x301 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x4x301x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  inb_S1000x978_S1000x978_0_0 : ∀ a, (![0, 0] : Fin 2 → Nat) a + S1000x978.size a ≤ S1000x978.size a
  h_S1000x978 : 0 < S1000x978.numel
  bitsLt_bf16_f32 : FTy.bits .bf16 < FTy.bits .f32
  inb_S978x301_S978x301_0_0 : ∀ a, (![0, 0] : Fin 2 → Nat) a + S978x301.size a ≤ S978x301.size a
  h_S978x301 : 0 < S978x301.numel
  inb_S1000x301_S1000x301_0_0 : ∀ a, (![0, 0] : Fin 2 → Nat) a + S1000x301.size a ≤ S1000x301.size a
  h_S1000x301 : 0 < S1000x301.numel
  bcast_S330000x1_S330000x301_0_1 : S330000x1.BroadcastsInDim S330000x301 (![0, 1] : Fin 2 → Fin S330000x301.rank)
  bcast_S_S10000x301 : S_.BroadcastsInDim S10000x301 (![] : Fin 0 → Fin S10000x301.rank)
  shapeCasts_S301_S1x301 : S301.ShapeCasts S1x301
  inb_S8x301_S8x301_0_0 : ∀ a, (![0, 0] : Fin 2 → Nat) a + S8x301.size a ≤ S8x301.size a
  h_S8x301 : 0 < S8x301.numel
  shapeCasts_S8x301_S8x301 : S8x301.ShapeCasts S8x301
  inb_S1x301_S1x301_0_0 : ∀ a, (![0, 0] : Fin 2 → Nat) a + S1x301.size a ≤ S1x301.size a
  h_S1x301 : 0 < S1x301.numel
  shapeCasts_S1x301_S1x301 : S1x301.ShapeCasts S1x301
  broadcasts_S1x301_S8x301 : S1x301.Broadcasts S8x301
  shapeCasts_S8x301_S8x1x301x1 : S8x301.ShapeCasts S8x1x301x1
  shapeCasts_S8x1x301x1_S8x1x301x1 : S8x1x301x1.ShapeCasts S8x1x301x1
  broadcasts_S8x1x301x1_S8x4x301x12 : S8x1x301x1.Broadcasts S8x4x301x12
  inb_S8x4x301x12_S8x4x301x12_0_0_0_0 : ∀ a, (![0, 0, 0, 0] : Fin 4 → Nat) a + S8x4x301x12.size a ≤ S8x4x301x12.size a
  h_S8x4x301x12 : 0 < S8x4x301x12.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S1000x978_S978x301_S1000x301_1_0_0_1_n_n_wf : DotDims.WF S1000x978 S978x301 S1000x301 [1] [0] [0] [1] [] []
  gather_S10000x301_S330000x1_S330000x301_1_0_n_n_0_1_1301_wf : GatherDims.WF S10000x301 S330000x1 S330000x301 [1] [0] [] [0] [] 1 ![1, 301]
  scatter_S10000x301_S330000x1_S330000x301_1_0_0_1_wf : ScatterDims.WF S10000x301 S330000x1 S330000x301 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x978.size a ≤ S10000x978.size a
  hwx0_0 : ∀ i : grid0.Coords, EltTy.bits .f32 = 32 ∨ (Rect.block (s := S10000x978) S1000x978.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S978x301.size a ≤ S978x301.size a
  hwx0_1 : ∀ i : grid0.Coords, EltTy.bits .f32 = 32 ∨ (Rect.block (s := S978x301) S978x301.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x301.size a ≤ S10000x301.size a
  hwx0_2 : ∀ i : grid0.Coords, EltTy.bits .f32 = 32 ∨ (Rect.block (s := S10000x301) S1000x301.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x301.size a ≤ S10000x301.size a
  hwx1_0 : ∀ i : grid1.Coords, EltTy.bits .f32 = 32 ∨ (Rect.block (s := S10000x301) S8x301.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x301.size a ≤ S1x301.size a
  hwx1_1 : ∀ i : grid1.Coords, EltTy.bits .f32 = 32 ∨ (Rect.block (s := S1x301) S1x301.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x4x301x12.size a ≤ S10000x4x301x12.size a
  hwx1_2 : ∀ i : grid1.Coords, EltTy.bits .f32 = 32 ∨ (Rect.block (s := S10000x4x301x12) S8x4x301x12.size (cc1_transform_2 i) (hinb1_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S1000x978_S978x301_S1000x301_1_0_0_1_n_n : DotDims S1000x978 S978x301 S1000x301 where
  lhsContracting := [1]
  rhsContracting := [0]
  lhsNonContracting := [0]
  rhsNonContracting := [1]
  lhsBatch := []
  rhsBatch := []
  wf := dot_S1000x978_S978x301_S1000x301_1_0_0_1_n_n_wf
def gather_S10000x301_S330000x1_S330000x301_1_0_n_n_0_1_1301 : GatherDims S10000x301 S330000x1 S330000x301 where
  offsetDims := [1]
  collapsedSliceDims := [0]
  operandBatchingDims := []
  startIndicesBatchingDims := []
  startIndexMap := [0]
  indexVectorDim := 1
  sliceSizes := ![1, 301]
  wf := gather_S10000x301_S330000x1_S330000x301_1_0_n_n_0_1_1301_wf
def scatter_S10000x301_S330000x1_S330000x301_1_0_0_1 : ScatterDims S10000x301 S330000x1 S330000x301 where
  updateWindowDims := [1]
  insertedWindowDims := [0]
  scatterDimsToOperandDims := [0]
  indexVectorDim := 1
  wf := scatter_S10000x301_S330000x1_S330000x301_1_0_0_1_wf

abbrev win0_0 : Pipeline.Window sig grid0 :=
  Pipeline.Window.ofSpec (Memref.whole main_arg0) S1000x978.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S978x301.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x301.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S8x301.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x301.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8x4x301x12.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x978 : Shape := ⟨2, ![10000, 978]⟩
abbrev S2x320000 : Shape := ⟨2, ![2, 320000]⟩
abbrev S320000 : Shape := ⟨1, ![320000]⟩
abbrev S978x301 : Shape := ⟨2, ![978, 301]⟩
abbrev S301 : Shape := ⟨1, ![301]⟩
abbrev S1x320000 : Shape := ⟨2, ![1, 320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S10000x301 : Shape := ⟨2, ![10000, 301]⟩
abbrev S330000x301 : Shape := ⟨2, ![330000, 301]⟩
abbrev S1x301 : Shape := ⟨2, ![1, 301]⟩
abbrev S10000x1x301x1 : Shape := ⟨4, ![10000, 1, 301, 1]⟩
abbrev S10000x4x301x12 : Shape := ⟨4, ![10000, 4, 301, 12]⟩

abbrev nBuf : Space → Nat
  | .hbm => 72
  | .vmem => 0
  | .smem => 0
  | _ => 0

abbrev bufTy : (tb : Table) → Fin (tcTables nBuf tb) → BufTy
  | .hbm, ⟨0, _⟩ => ⟨S10000x978, .f32⟩
  | .hbm, ⟨1, _⟩ => ⟨S2x320000, .i32⟩
  | .hbm, ⟨2, _⟩ => ⟨S320000, .f32⟩
  | .hbm, ⟨3, _⟩ => ⟨S978x301, .f32⟩
  | .hbm, ⟨4, _⟩ => ⟨S301, .f32⟩
  | .hbm, ⟨5, _⟩ => ⟨S1x320000, .i32⟩
  | .hbm, ⟨6, _⟩ => ⟨S320000, .i32⟩
  | .hbm, ⟨7, _⟩ => ⟨S1x320000, .i32⟩
  | .hbm, ⟨8, _⟩ => ⟨S320000, .i32⟩
  | .hbm, ⟨9, _⟩ => ⟨S10000, .i32⟩
  | .hbm, ⟨10, _⟩ => ⟨S330000, .i32⟩
  | .hbm, ⟨11, _⟩ => ⟨S330000, .i32⟩
  | .hbm, ⟨12, _⟩ => ⟨S_, .f32⟩
  | .hbm, ⟨13, _⟩ => ⟨S10000, .f32⟩
  | .hbm, ⟨14, _⟩ => ⟨S330000, .f32⟩
  | .hbm, ⟨15, _⟩ => ⟨S_, .f32⟩
  | .hbm, ⟨16, _⟩ => ⟨S10000, .f32⟩
  | .hbm, ⟨17, _⟩ => ⟨S330000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S330000, .i32⟩
  | .hbm, ⟨29, _⟩ => ⟨S330000, .i1⟩
  | .hbm, ⟨30, _⟩ => ⟨S_, .i32⟩
  | .hbm, ⟨31, _⟩ => ⟨S330000, .i32⟩
  | .hbm, ⟨32, _⟩ => ⟨S330000, .i32⟩
  | .hbm, ⟨33, _⟩ => ⟨S330000, .i32⟩
  | .hbm, ⟨34, _⟩ => ⟨S330000x1, .i32⟩
  | .hbm, ⟨35, _⟩ => ⟨S330000, .f32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S10000x301, .f32⟩
  | .hbm, ⟨48, _⟩ => ⟨S330000x1, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x301, .f32⟩
  | .hbm, ⟨58, _⟩ => ⟨S330000x301, .f32⟩
  | .hbm, ⟨59, _⟩ => ⟨S330000x301, .f32⟩
  | .hbm, ⟨60, _⟩ => ⟨S_, .f32⟩
  | .hbm, ⟨61, _⟩ => ⟨S10000x301, .f32⟩
  | .hbm, ⟨62, _⟩ => ⟨S330000x1, .i32⟩
  | .hbm, ⟨63, _⟩ => ⟨S10000x301, .f32⟩
  | .hbm, ⟨64, _⟩ => ⟨S1x301, .f32⟩
  | .hbm, ⟨65, _⟩ => ⟨S10000x301, .f32⟩
  | .hbm, ⟨66, _⟩ => ⟨S10000x301, .f32⟩
  | .hbm, ⟨67, _⟩ => ⟨S_, .f32⟩
  | .hbm, ⟨68, _⟩ => ⟨S10000x301, .f32⟩
  | .hbm, ⟨69, _⟩ => ⟨S10000x301, .f32⟩
  | .hbm, ⟨70, _⟩ => ⟨S10000x1x301x1, .f32⟩
  | .hbm, ⟨71, _⟩ => ⟨S10000x4x301x12, .f32⟩
  | _, _ => ⟨S10000x978, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x301_0_1 : S330000x1.BroadcastsInDim S330000x301 (![0, 1] : Fin 2 → Fin S330000x301.rank)
  bcast_S_S10000x301 : S_.BroadcastsInDim S10000x301 (![] : Fin 0 → Fin S10000x301.rank)
  bcast_S301_S1x301_1 : S301.BroadcastsInDim S1x301 (![1] : Fin 1 → Fin S1x301.rank)
  bcast_S1x301_S10000x301_0_1 : S1x301.BroadcastsInDim S10000x301 (![0, 1] : Fin 2 → Fin S10000x301.rank)
  bcast_S10000x301_S10000x1x301x1_0_2 : S10000x301.BroadcastsInDim S10000x1x301x1 (![0, 2] : Fin 2 → Fin S10000x1x301x1.rank)
  bcast_S10000x1x301x1_S10000x4x301x12_0_1_2_3 : S10000x1x301x1.BroadcastsInDim S10000x4x301x12 (![0, 1, 2, 3] : Fin 4 → Fin S10000x4x301x12.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x978_S978x301_S10000x301_1_0_0_1_n_n_wf : DotDims.WF S10000x978 S978x301 S10000x301 [1] [0] [0] [1] [] []
  gather_S10000x301_S330000x1_S330000x301_1_0_n_n_0_1_1301_wf : GatherDims.WF S10000x301 S330000x1 S330000x301 [1] [0] [] [0] [] 1 ![1, 301]
  scatter_S10000x301_S330000x1_S330000x301_1_0_0_1_wf : ScatterDims.WF S10000x301 S330000x1 S330000x301 [1] [0] [0] 1

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x978_S978x301_S10000x301_1_0_0_1_n_n : DotDims S10000x978 S978x301 S10000x301 where
  lhsContracting := [1]
  rhsContracting := [0]
  lhsNonContracting := [0]
  rhsNonContracting := [1]
  lhsBatch := []
  rhsBatch := []
  wf := dot_S10000x978_S978x301_S10000x301_1_0_0_1_n_n_wf
def gather_S10000x301_S330000x1_S330000x301_1_0_n_n_0_1_1301 : GatherDims S10000x301 S330000x1 S330000x301 where
  offsetDims := [1]
  collapsedSliceDims := [0]
  operandBatchingDims := []
  startIndicesBatchingDims := []
  startIndexMap := [0]
  indexVectorDim := 1
  sliceSizes := ![1, 301]
  wf := gather_S10000x301_S330000x1_S330000x301_1_0_n_n_0_1_1301_wf
def scatter_S10000x301_S330000x1_S330000x301_1_0_0_1 : ScatterDims S10000x301 S330000x1 S330000x301 where
  updateWindowDims := [1]
  insertedWindowDims := [0]
  scatterDimsToOperandDims := [0]
  indexVectorDim := 1
  wf := scatter_S10000x301_S330000x1_S330000x301_1_0_0_1_wf

class Facts : Prop extends Facts₀ where

variable [Facts]
-- ==== Proof.Spec.lean ====
/-
  The graph-convolution layer, index by index, on the extended reals: the two functions both programs compute
  around the one chain of host operations they share.

  `proj x w` is the dense projection of the node features: entry (r, c) is the sum over the 978 input features k of
  x[r, k] * w[k, c]. On the extended reals addition is commutative and associative, so the sum does not depend on
  the order or the blocking in which a program takes it.

  `activate agg b` is the layer's last step: entry (n, h, d, r) is max(agg[n, d] + b[0, d], 0) — the bias row added
  to every node's aggregated features, the negative part cut off, and the value repeated over the 4 heads h and the
  12 repeats r.

  Between the two, each program scatters the projected rows along the graph's edges, scaled by the symmetric
  normalisation (a sum over edges into a node, a reciprocal square root, two gathers): that chain is the same text
  in both programs and is carried through the proof as one function of the projected features, never opened.
-/
import Idealize.ShloMosaic.PureOps.Ideal
import Idealize.ShloMosaic.Lib.ValueIdx

noncomputable section

namespace Cert.Gcn

open Idealize.ShloMosaic Idealize.ShloMosaic.ValueIdx
open scoped BigOperators

/-- The projected features: entry (r, c) is the sum over k of x[r, k] * w[k, c]. -/
def proj (x : FVec Ideal ⟨2, ![10000, 978]⟩ .f32) (w : FVec Ideal ⟨2, ![978, 301]⟩ .f32) :
    FVec Ideal ⟨2, ![10000, 301]⟩ .f32 :=
  fun i => ∑ k : Fin 978, x (ix2 (⟨(i 0).val, (i 0).isLt⟩ : Fin 10000) k) * w (ix2 k (⟨(i 1).val, (i 1).isLt⟩ : Fin 301))

/-- The layer's output: entry (n, h, d, r) is max(agg[n, d] + b[0, d], 0), whatever the head h and the repeat r. -/
def activate (agg : FVec Ideal ⟨2, ![10000, 301]⟩ .f32) (b : FVec Ideal ⟨2, ![1, 301]⟩ .f32) :
    FVec Ideal ⟨4, ![10000, 4, 301, 12]⟩ .f32 :=
  fun i => max (agg (ix2 (⟨(i 0).val, (i 0).isLt⟩ : Fin 10000) (⟨(i 2).val, (i 2).isLt⟩ : Fin 301))
      + b (ix2 (0 : Fin 1) (⟨(i 2).val, (i 2).isLt⟩ : Fin 301))) (Ideal.ofBits .f32 0x00000000#32)

end Cert.Gcn

end
-- ==== Proof.RefStages.lean ====
/-
  The reference, stage by stage, is the layer of the specification.

  Its `dot_general` of the features and the weights is the projection `proj`: at an index (r, c) the host's
  contraction is the sum over the one contracted axis k of x[r, k] * w[k, c].

  Its next thirteen operations — gather the projected rows at the edges' source nodes, scale each by its edge's
  normalisation, sum the scaled rows into the edges' target nodes — read the projected features through one gather
  and nothing else of them: they are ONE function `aggregate` of the edge list, the edge weights and the projected
  features, and nothing below needs to know more about it than that.

  Its last six operations are `activate`: the bias spread over the nodes and added, the maximum with the zero
  constant, and two broadcasts that repeat entry (n, d) over the heads and the repeats — read back index by index,
  entry (n, h, d, r) of the result is max(agg[n, d] + bias[0, d], 0).
-/
import proofs.«173048_j78546361909532_2_alg».proof.Proof.Gen.ReferenceIdeal.Read
import proofs.«173048_j78546361909532_2_alg».proof.Proof.Spec

noncomputable section

namespace Cert.Gcn

open Cert.ReferenceIdeal Cert.ReferenceIdeal.Gen Cert.ReferenceIdeal.Read
open Idealize.ShloMosaic Idealize.ShloMosaic.TcCoe Idealize.ShloMosaic.ValueIdx Idealize.SL.Sem

variable {F : FTy → Type} [FloatOps F]

/-- The aggregation along the edges, as a function of the source nodes `src`, the target nodes `dst`, the edges'
    normalisation `nrm` and the projected features `h`: row `src[e]` of `h` is gathered for every edge `e` (a negative
    node number wrapped around by adding the node count), scaled by `nrm[e]`, and summed into node `dst[e]` of an
    array of zeros. -/
def aggregateOf (src dst : (⟨S330000, .i32⟩ : BufTy).Contents (Elt F)) (nrm : (⟨S330000, .f32⟩ : BufTy).Contents (Elt F))
    (h : (⟨S10000x301, .f32⟩ : BufTy).Contents (Elt F)) : (⟨S10000x301, .f32⟩ : BufTy).Contents (Elt F) :=
  Host.scatterAdd scatter_S10000x301_S330000x1_S330000x301_1_0_0_1
    (broadcastInDim S10000x301 ![] bcast_S_S10000x301 (constant S_ .f32 0x00000000#32))
    (broadcastInDim S330000x1 ![0] bcast_S330000_S330000x1_0 dst)
    (mulf (broadcastInDim S330000x301 ![0, 1] bcast_S330000x1_S330000x301_0_1 (broadcastInDim S330000x1 ![0] bcast_S330000_S330000x1_0 nrm))
      (Host.gather gather_S10000x301_S330000x1_S330000x301_1_0_n_n_0_1_1301 h
        (broadcastInDim S330000x1 ![0] bcast_S330000_S330000x1_0
          (select (cmpi .slt src (broadcastInDim S330000 ![] bcast_S_S330000 (constantI S_ 32 0#32)))
            (addi src (broadcastInDim S330000 ![] bcast_S_S330000 (constantI S_ 32 10000#32))) src))))

/-- Every node's normalising factor: the reciprocal square root of its degree where the degree is positive, the zero
    `z` elsewhere. -/
def factorOf (pos : (⟨S10000, .i1⟩ : BufTy).Contents (Elt F)) (rs : (⟨S10000, .f32⟩ : BufTy).Contents (Elt F))
    (z : (⟨S_, .f32⟩ : BufTy).Contents (Elt F)) : (⟨S10000, .f32⟩ : BufTy).Contents (Elt F) :=
  select pos rs (broadcastInDim S10000 ![] bcast_S_S10000 (id z))

/-- Every edge's normalisation: the factor at its source node, times its weight, times the factor at its target node
    (a negative node number wrapped around by adding the node count). -/
def normOf (src dst : (⟨S330000, .i32⟩ : BufTy).Contents (Elt F)) (w : (⟨S330000, .f32⟩ : BufTy).Contents (Elt F))
    (fac : (⟨S10000, .f32⟩ : BufTy).Contents (Elt F)) : (⟨S330000, .f32⟩ : BufTy).Contents (Elt F) :=
  mulf
    (mulf
      (Host.gather gather_S10000_S330000x1_S330000_n_0_n_n_0_1_1 fac
        (broadcastInDim S330000x1 ![0] bcast_S330000_S330000x1_0
          (select (cmpi .slt src (broadcastInDim S330000 ![] bcast_S_S330000 (constantI S_ 32 0#32)))
            (addi src (broadcastInDim S330000 ![] bcast_S_S330000 (constantI S_ 32 10000#32))) src)))
      w)
    (Host.gather gather_S10000_S330000x1_S330000_n_0_n_n_0_1_1 fac
      (broadcastInDim S330000x1 ![0] bcast_S330000_S330000x1_0
        (select (cmpi .slt dst (broadcastInDim S330000 ![] bcast_S_S330000 (constantI S_ 32 0#32)))
          (addi dst (broadcastInDim S330000 ![] bcast_S_S330000 (constantI S_ 32 10000#32))) dst)))

/-- The reference's per-node factor is `factorOf` of its three earlier stages. -/
theorem ref_factor (x1 : (⟨S2x320000, .i32⟩ : BufTy).Contents (Elt F)) (x2 : (⟨S320000, .f32⟩ : BufTy).Contents (Elt F)) :
    val_main_v15 (F := F) x1 x2
      = factorOf (val_main_v13 (F := F) x1 x2) (val_main_v14 (F := F) x1 x2) (val_main_cst_2 (F := F)) := rfl

/-- The reference's normalisation is `normOf` of its edge lists, its weights and its per-node factor. -/
theorem ref_norm (x1 : (⟨S2x320000, .i32⟩ : BufTy).Contents (Elt F)) (x2 : (⟨S320000, .f32⟩ : BufTy).Contents (Elt F)) :
    val_main_v31 (F := F) x1 x2
      = normOf (val_main_v5 (F := F) x1) (val_main_v6 (F := F) x1) (val_main_v8 (F := F) x2) (val_main_v15 (F := F) x1 x2) := rfl

/-- The aggregation as a function of the projected features alone: the edge list (with the self-loops appended) and
    the normalisation are the reference's own earlier stages of the edge index `x1` and the edge weights `x2`. -/
def aggregate (x1 : (⟨S2x320000, .i32⟩ : BufTy).Contents (Elt F)) (x2 : (⟨S320000, .f32⟩ : BufTy).Contents (Elt F))
    (h : (⟨S10000x301, .f32⟩ : BufTy).Contents (Elt F)) : (⟨S10000x301, .f32⟩ : BufTy).Contents (Elt F) :=
  aggregateOf (val_main_v5 (F := F) x1) (val_main_v6 (F := F) x1) (val_main_v31 (F := F) x1 x2) h

/-- The reference's aggregated features are `aggregate` of its projected features: the stages between the two read
    the projection through the one gather. -/
theorem ref_aggregate (x0 : (⟨S10000x978, .f32⟩ : BufTy).Contents (Elt F)) (x1 : (⟨S2x320000, .i32⟩ : BufTy).Contents (Elt F))
    (x2 : (⟨S320000, .f32⟩ : BufTy).Contents (Elt F)) (x3 : (⟨S978x301, .f32⟩ : BufTy).Contents (Elt F)) :
    val_main_v45 (F := F) x0 x1 x2 x3 = aggregate x1 x2 (val_main_v32 (F := F) x0 x3) := rfl

/-- The reference's contraction of the features with the weights is the projection, index by index: the left operand
    is read at (r, k) and the right one at (k, c). -/
theorem ref_proj (x0 : (⟨S10000x978, .f32⟩ : BufTy).Contents (Elt Ideal)) (x3 : (⟨S978x301, .f32⟩ : BufTy).Contents (Elt Ideal)) :
    val_main_v32 (F := Ideal) x0 x3 = proj x0 x3 := by
  funext i
  rw [val_main_v32_apply]
  unfold proj
  refine Finset.sum_congr rfl fun k _ => ?_
  have el : lidx_main_v32 i k = ix2 (⟨(i 0).val, (i 0).isLt⟩ : Fin 10000) k :=
    funext fun a => Fin.ext (by match a with | ⟨0, _⟩ => rfl | ⟨1, _⟩ => rfl)
  have er : ridx_main_v32 i k = ix2 k (⟨(i 1).val, (i 1).isLt⟩ : Fin 301) :=
    funext fun a => Fin.ext (by match a with | ⟨0, _⟩ => rfl | ⟨1, _⟩ => rfl)
  rw [el, er]

/-- The reference's last six operations are `activate` of its aggregated features and its bias row: entry (n, h, d, r)
    reads the aggregated features at (n, d) and the bias row at (0, d), whatever h and r. -/
theorem ref_activate (x0 : (⟨S10000x978, .f32⟩ : BufTy).Contents (Elt Ideal)) (x1 : (⟨S2x320000, .i32⟩ : BufTy).Contents (Elt Ideal))
    (x2 : (⟨S320000, .f32⟩ : BufTy).Contents (Elt Ideal)) (x3 : (⟨S978x301, .f32⟩ : BufTy).Contents (Elt Ideal))
    (x4 : (⟨S301, .f32⟩ : BufTy).Contents (Elt Ideal)) :
    val_main_v51 (F := Ideal) x0 x1 x2 x3 x4
      = activate (val_main_v45 (F := Ideal) x0 x1 x2 x3) (val_main_v46 (F := Ideal) x4) := by
  funext i
  rw [val_main_v51_apply, val_main_v50_apply, val_main_v49_apply, val_main_v48_apply, val_main_v47_apply,
    val_main_call1_v0_apply, val_main_call1_cst_apply]
  generalize val_main_v45 (F := Ideal) x0 x1 x2 x3 = agg
  generalize val_main_v46 (F := Ideal) x4 = b
  have e2 : idx_main_v47 (idx_main_v50 (idx_main_v51 i)) = ix2 (0 : Fin 1) (⟨(i 2).val, (i 2).isLt⟩ : Fin 301) :=
    funext fun a => Fin.ext (by match a with | ⟨0, _⟩ => rfl | ⟨1, _⟩ => rfl)
  have e1 : idx_main_v50 (idx_main_v51 i) = ix2 (⟨(i 0).val, (i 0).isLt⟩ : Fin 10000) (⟨(i 2).val, (i 2).isLt⟩ : Fin 301) :=
    funext fun a => Fin.ext (by match a with | ⟨0, _⟩ => rfl | ⟨1, _⟩ => rfl)
  rw [e2, e1]
  rfl

/-- The reference's result, as its run states it, is the layer of the specification of the launch contents of its
    five arguments. -/
theorem ref_value (m : (ℓ : Loc nD τ sig) → Buf (Elt Ideal) ℓ) (c : Dev nD) :
    Cert.ReferenceIdeal.Value.res_main_v51 m c
      = activate (aggregate (m ((c.tc : Thread nD τ).loc main_arg1)) (m ((c.tc : Thread nD τ).loc main_arg2))
          (proj (m ((c.tc : Thread nD τ).loc main_arg0)) (m ((c.tc : Thread nD τ).loc main_arg3))))
        (val_main_v46 (F := Ideal) (m ((c.tc : Thread nD τ).loc main_arg4))) := by
  rw [val_main_v51_eq, ref_activate, ref_aggregate, ref_proj]

end Cert.Gcn

end
-- ==== Proof.HostGlue.lean ====
/-
  The idealized kernel's host operations, read back as the reference's stages.

  Before the projection region the kernel's @main computes, from the edge index and the edge weights alone, the
  source and target node of every edge with the self-loops appended, and every edge's symmetric normalisation (the
  weight divided by the square roots of its two end nodes' degrees, a node of degree zero counting as zero). These
  42 operations are the reference's first 42, word for word: the three values the later operations read are the
  reference's stages of the same two arguments. No operation writes an argument, so the projection region finds the
  features and the weights as launched.

  Between the two regions the kernel gathers the projected rows along the edges, scales them and sums them into the
  target nodes: `aggregateOf` of those three values and of whatever the projection region left in its output array.
  It also views the bias vector as one row: entry (0, d) of the row is entry d of the vector, which is how the
  reference spreads its bias into a row too.
-/
import proofs.«173048_j78546361909532_2_alg».proof.Proof.Gen.KernelIdeal.Frame
import proofs.«173048_j78546361909532_2_alg».proof.Proof.RefStages
import Idealize.ShloMosaic.Lib.StableHlo.Run
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The arguments, as the regions and the middle stretch find them -/

/-- The projection region finds the node features as launched: none of the 42 operations before it writes them. -/
theorem entry_features (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

/-- … and the weights as launched. -/
theorem entry_weights (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

/-- The bias vector is as launched when the projection region has run: it is not one of the region's arrays, and no
    operation before the region writes it. -/
theorem exit_bias (c : Dev nD) : W4 m ρ c (Proc.devRef .tc main_arg4) = m ((c : Thread nD τ).loc main_arg4) :=
  (W4_of_ne m ρ c main_arg4 (by decide)).trans (by
    show StableHlo.after hostOps0_2 (StableHlo.after hostOps0_1 (StableHlo.after hostOps0 (W0 m ρ c))) (Proc.devRef .tc main_arg4) = _
    dsimp only [hostOps0, hostOps0_1, hostOps0_2]
    after_results_simp <;> rfl)

/-! ## The three values the middle stretch reads -/

/-- The edges' source nodes, the self-loops appended: the reference's stage of the edge index. -/
theorem exit_src (c : Dev nD) :
    W4 m ρ c (Proc.devRef .tc main_v5) = Cert.ReferenceIdeal.Read.val_main_v5 (F := Ideal) (m ((c : Thread nD τ).loc main_arg1)) :=
  (W4_of_ne m ρ c main_v5 (by decide)).trans (by
    show StableHlo.after hostOps0_2 (StableHlo.after hostOps0_1 (StableHlo.after hostOps0 (W0 m ρ c))) (Proc.devRef .tc main_v5) = _
    dsimp only [hostOps0, hostOps0_1, hostOps0_2]
    after_results_simp <;> rfl)

/-- The edges' target nodes, the self-loops appended: the reference's stage of the edge index. -/
theorem exit_dst (c : Dev nD) :
    W4 m ρ c (Proc.devRef .tc main_v6) = Cert.ReferenceIdeal.Read.val_main_v6 (F := Ideal) (m ((c : Thread nD τ).loc main_arg1)) :=
  (W4_of_ne m ρ c main_v6 (by decide)).trans (by
    show StableHlo.after hostOps0_2 (StableHlo.after hostOps0_1 (StableHlo.after hostOps0 (W0 m ρ c))) (Proc.devRef .tc main_v6) = _
    dsimp only [hostOps0, hostOps0_1, hostOps0_2]
    after_results_simp <;> rfl)

/-! ### The normalisation, stretch by stretch

The first stretch (19 operations, from the launch memory) hands on the edge lists, the edge weights with the
self-loops' ones appended, whether each node's degree is positive, its reciprocal square root, and a zero; the
second (the outlined selection, 3 operations) the per-node factor: the reciprocal square root where the degree is
positive, zero elsewhere; the third (20 operations) gathers the factor at both ends of every edge and multiplies. -/

section FirstStretch

theorem first_src (c : Dev nD) : W1 m ρ c (Proc.devRef .tc main_v5)
    = Cert.ReferenceIdeal.Read.val_main_v5 (F := Ideal) (m ((c : Thread nD τ).loc main_arg1)) := by
  show StableHlo.after hostOps0 (W0 m ρ c) (Proc.devRef .tc main_v5) = _
  dsimp only [hostOps0]
  after_results_simp <;> rfl

theorem first_dst (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  dsimp only [hostOps0]
  after_results_simp <;> rfl

theorem first_weights (c : Dev nD) : W1 m ρ c (Proc.devRef .tc main_v8)
    = Cert.ReferenceIdeal.Read.val_main_v8 (F := Ideal) (m ((c : Thread nD τ).loc main_arg2)) := by
  show StableHlo.after hostOps0 (W0 m ρ c) (Proc.devRef .tc main_v8) = _
  dsimp only [hostOps0]
  after_results_simp <;> rfl

theorem first_positive (c : Dev nD) : W1 m ρ c (Proc.devRef .tc main_v13)
    = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  dsimp only [hostOps0]
  after_results_simp <;> rfl

theorem first_rsqrt (c : Dev nD) : W1 m ρ c (Proc.devRef .tc main_v14)
    = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  dsimp only [hostOps0]
  after_results_simp <;> rfl

theorem first_zero (c : Dev nD) : W1 m ρ c (Proc.devRef .tc main_cst_2)
    = Cert.ReferenceIdeal.Read.val_main_cst_2 (F := Ideal) := by
  show StableHlo.after hostOps0 (W0 m ρ c) (Proc.devRef .tc main_cst_2) = _
  dsimp only [hostOps0]
  after_results_simp <;> rfl

end FirstStretch

section LaterStretches

/-- The outlined selection computes the per-node factor from what the first stretch hands on … -/
theorem second_factor (c : Dev nD) : W2 m ρ c (Proc.devRef .tc main_v15)
    = Cert.Gcn.factorOf (F := Ideal) (W1 m ρ c (Proc.devRef .tc main_v13)) (W1 m ρ c (Proc.devRef .tc main_v14))
        (W1 m ρ c (Proc.devRef .tc main_cst_2)) := by
  show StableHlo.after hostOps0_1 (W1 m ρ c) (Proc.devRef .tc main_v15) = _
  generalize W1 m ρ c = W
  dsimp only [hostOps0_1]
  after_results_simp <;> rfl

/-- … and writes none of the edge lists and the weights. -/
theorem second_src (c : Dev nD) : W2 m ρ c (Proc.devRef .tc main_v5) = W1 m ρ c (Proc.devRef .tc main_v5) := by
  show StableHlo.after hostOps0_1 (W1 m ρ c) (Proc.devRef .tc main_v5) = _
  generalize W1 m ρ c = W
  dsimp only [hostOps0_1]
  after_results_simp <;> rfl
theorem second_dst (c : Dev nD) : W2 m ρ c (Proc.devRef .tc main_v6) = W1 m ρ c (Proc.devRef .tc main_v6) := by
  show StableHlo.after hostOps0_1 (W1 m ρ c) (Proc.devRef .tc main_v6) = _
  generalize W1 m ρ c = W
  dsimp only [hostOps0_1]
  after_results_simp <;> rfl
theorem second_weights (c : Dev nD) : W2 m ρ c (Proc.devRef .tc main_v8) = W1 m ρ c (Proc.devRef .tc main_v8) := by
  show StableHlo.after hostOps0_1 (W1 m ρ c) (Proc.devRef .tc main_v8) = _
  generalize W1 m ρ c = W
  dsimp only [hostOps0_1]
  after_results_simp <;> rfl

/-- The third stretch computes every edge's normalisation from the edge lists, the weights and the per-node factor. -/
theorem third_norm (c : Dev nD) : W3 m ρ c (Proc.devRef .tc main_v31)
    = Cert.Gcn.normOf (F := Ideal) (W2 m ρ c (Proc.devRef .tc main_v5)) (W2 m ρ c (Proc.devRef .tc main_v6))
        (W2 m ρ c (Proc.devRef .tc main_v8)) (W2 m ρ c (Proc.devRef .tc main_v15)) := by
  show StableHlo.after hostOps0_2 (W2 m ρ c) (Proc.devRef .tc main_v31) = _
  generalize W2 m ρ c = W
  dsimp only [hostOps0_2]
  after_results_simp <;> rfl

end LaterStretches

/-- Every edge's normalisation, as the projection region's exit leaves it, is the reference's stage of the edge index
    and the edge weights: the region does not touch it, and the three stretches before the region compute it as the
    reference does. -/
theorem exit_nrm (c : Dev nD) :
    W4 m ρ c (Proc.devRef .tc main_v31)
      = Cert.ReferenceIdeal.Read.val_main_v31 (F := Ideal) (m ((c : Thread nD τ).loc main_arg1)) (m ((c : Thread nD τ).loc main_arg2)) := by
  rw [W4_of_ne m ρ c main_v31 (by decide), third_norm, second_factor, second_src, second_dst, second_weights,
    first_src, first_dst, first_weights, first_positive, first_rsqrt, first_zero,
    Cert.Gcn.ref_norm, Cert.Gcn.ref_factor]

/-! ## The middle stretch -/

/-- The activation region finds, as its aggregated features, `aggregateOf` of the three values above and of the
    projection region's output array, each as the projection region's exit leaves it. -/
theorem entry_rows (c : Dev nD) :
    V5 m ρ c main_v45 = Cert.Gcn.aggregateOf (F := Ideal) (W4 m ρ c (Proc.devRef .tc main_v5)) (W4 m ρ c (Proc.devRef .tc main_v6))
      (W4 m ρ c (Proc.devRef .tc main_v31)) (W4 m ρ c (Proc.devRef .tc main_v32)) := by
  show StableHlo.after hostOps1 (W4 m ρ c) (Proc.devRef .tc main_v45) = _
  generalize W4 m ρ c = W
  dsimp only [hostOps1]
  after_results_simp <;> rfl

/-- The activation region finds, as its bias row, the bias vector viewed as one row — which is the reference's way of
    spreading the bias into a row: entry (0, d) of either is entry d of the vector. -/
theorem entry_bias (c : Dev nD) :
    V5 m ρ c main_v46 = Cert.ReferenceIdeal.Read.val_main_v46 (F := Ideal) (m ((c : Thread nD τ).loc main_arg4)) := by
  have h : V5 m ρ c main_v46 = shapeCast S1x301 (W4 m ρ c (Proc.devRef .tc main_arg4)) shapeCasts_S301_S1x301 := by
    show StableHlo.after hostOps1 (W4 m ρ c) (Proc.devRef .tc main_v46) = _
    generalize W4 m ρ c = W
    dsimp only [hostOps1]
    after_results_simp <;> rfl
  rw [h, exit_bias]
  generalize m ((c : Thread nD τ).loc main_arg4) = b
  funext i
  obtain ⟨u, j, rfl⟩ : ∃ (u : Fin 1) (j : Fin 301), i = ix2 u j := ⟨i 0, i 1, eq_ix2 i⟩
  rw [shapeCast_a_1a_apply, Cert.ReferenceIdeal.Read.val_main_v46_apply]
  exact congrArg b (funext fun a => Fin.ext (by match a with | ⟨0, _⟩ => rfl))

end Cert.KernelIdeal.HostSide

end
-- ==== Proof.LibKeepdims4.lean ====
/-
  Rank-2 data kept as rank-4 with two unit axes, read at an index; generic in the extents and the element type.

  An [a, c] array viewed as [a, 1, c, 1] (a unit axis after each of its two axes) has the same row-major order, so
  entry (p, u, q, v) of the view is entry (p, q) of the array, the unit coordinates u and v being 0.

  That view broadcast to [a, b, c, d] repeats every entry along the two unit axes: entry (p, s, q, r) of the result is
  entry (p, 0, q, 0) of the view, whatever s and r.
-/
import Idealize.ShloMosaic.Lib.Pipeline.Value
import Idealize.ShloMosaic.Lib.ValueIdx

namespace Keepdims4

open Idealize.ShloMosaic Idealize.ShloMosaic.ValueIdx

variable {α : Type}

/-- An [a, c] array cast to [a, 1, c, 1] reads, at (p, u, q, v), the operand at (p, q): the two row-major positions
    are (p * 1 + u) * c + q, times 1, plus v, and p * c + q, equal since u = v = 0. -/
theorem shapeCast_ac_a1c1_apply {a c : ℕ} (x : (⟨2, ![a, c]⟩ : Shape).Idx → α)
    (h : (⟨2, ![a, c]⟩ : Shape).ShapeCasts ⟨4, ![a, 1, c, 1]⟩) (p : Fin a) (u : Fin 1) (q : Fin c) (v : Fin 1) :
    shapeCast ⟨4, ![a, 1, c, 1]⟩ x h (ix4 p u q v) = x (ix2 p q) :=
  shapeCast_apply x h _ _ (by
    have hu : u.val = 0 := by omega
    have hv : v.val = 0 := by omega
    rw [Shape.rowMajor_val_four, Shape.rowMajor_val_two]
    show p.val * c + q.val = ((p.val * 1 + u.val) * c + q.val) * 1 + v.val
    simp only [hu, hv, Nat.mul_one, Nat.add_zero])

/-- An [a, 1, c, 1] array broadcast to [a, b, c, d] reads, at (p, s, q, r), the operand at (p, 0, q, 0): a unit axis of
    the operand is read at 0, any other axis at the result's coordinate. -/
theorem broadcastTo_a1c1_abcd_apply {a b c d : ℕ} (x : (⟨4, ![a, 1, c, 1]⟩ : Shape).Idx → α)
    (h : (⟨4, ![a, 1, c, 1]⟩ : Shape).Broadcasts ⟨4, ![a, b, c, d]⟩) (p : Fin a) (s : Fin b) (q : Fin c) (r : Fin d) :
    broadcastTo ⟨4, ![a, b, c, d]⟩ x h (ix4 p s q r) = x (ix4 p (0 : Fin 1) q (0 : Fin 1)) := by
  refine broadcastTo_apply x h (ix4 p s q r) (ix4 p (0 : Fin 1) q (0 : Fin 1)) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl
  | ⟨3, _⟩ => rfl

end Keepdims4
-- ==== Proof.Activate.lean ====
/-
  The activation region's output array, whatever the region finds in its two input arrays.

  The grid has 1250 points; point t stages rows 8t .. 8t+7 of the aggregated features, the whole bias row, and
  writes back rows 8t .. 8t+7 of the result (all heads, all features, all repeats). The body adds the bias row to
  the 8 rows, takes the maximum with zero, views the 8 x 301 values as 8 x 1 x 301 x 1 and repeats them to
  8 x 4 x 301 x 12: entry (p, s, d, r) of what it stores is max(rows[p, d] + bias[0, d], 0).

  So what point t writes back is block t of `activate` of the two input arrays, and since the 1250 blocks of 8 rows
  tile the 10000 rows, the output array ends holding `activate` of them, index by index.
-/
import proofs.«173048_j78546361909532_2_alg».proof.Proof.Gen.KernelIdeal.Frame
import proofs.«173048_j78546361909532_2_alg».proof.Proof.Spec
import proofs.«173048_j78546361909532_2_alg».proof.Proof.LibKeepdims4
import Idealize.ShloMosaic.Lib.Pipeline.Value
import Idealize.ShloMosaic.Lib.ValueIdx
import Idealize.ShloMosaic.Lib.ValueLayout

set_option maxRecDepth 16384

noncomputable section

namespace Cert.KernelIdeal.Activation

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- What the body stores, at entry (p, s, d, r) of the staged block: the maximum with zero of row p of the staged
    rows plus the bias row, at feature d — the same for every head s and repeat r. -/
theorem payload_apply (x0 : Vec Ideal S8x301 .f32) (x1 : Vec Ideal S1x301 .f32) (p : Fin 8) (s : Fin 4) (d : Fin 301) (r : Fin 12) :
    k1_pay1 (F := Ideal) x0 x1 (ix4 p s d r)
      = max (x0 (ix2 p d) + x1 (ix2 (0 : Fin 1) d)) (Ideal.ofBits .f32 0x00000000#32) := by
  unfold k1_pay1
  rw [Keepdims4.broadcastTo_a1c1_abcd_apply, shapeCast_self, Keepdims4.shapeCast_ac_a1c1_apply, shapeCast_self, shapeCast_self]
  show max (x0 (ix2 p d) + broadcastTo S8x301 x1 broadcasts_S1x301_S8x301 (ix2 p d)) (Ideal.ofBits .f32 0x00000000#32) = _
  rw [broadcastTo_1b_ab_apply]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The printed index maps over the grid: at point t the rows window and the output window sit at block t of
    their first axis and block 0 of every other, the bias window at block 0 of both. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 4) = t.val ∧ win1_2.index t (1 : Fin 4) = 0
    ∧ win1_2.index t (2 : Fin 4) = 0 ∧ win1_2.index t (3 : Fin 4) = 0 :=
  (by decide +kernel : ∀ t : Fin grid1.N, _)

section
variable (V : (c : Dev nD) → (b : Ref sig .tc) → Buf (Elt Ideal) ((c : Thread nD τ).loc b))

/-- The aggregated features as the region finds them: an extended real per (node, feature). -/
abbrev rowsIn (c : Dev nD) : S10000x301.Idx → EReal := V c main_v45
/-- The bias row as the region finds it: an extended real per feature. -/
abbrev biasIn (c : Dev nD) : S1x301.Idx → EReal := V c main_v46

/-- What point t writes back is block t of `activate` of the two input arrays as the region finds them: the staged
    rows are rows 8t + p of the aggregated features, the staged bias row is the bias row, and entry (p, s, d, r) of the
    block is entry (8t + p, s, d, r) of the array. -/
theorem block_eq (c : Dev nD) (t : Fin cfg1.N) :
    (dat1 V c).flushed 2 t = ((cfg1.win 2).blk t).view.read (Elt Ideal) (activate (V c main_v45) (V c main_v46)) := by
  show (cfg1.win 2).cut (grid1.coords t) ((dat1 V c).after 2 t) = _
  rw [after1_2]
  unfold out1_2
  rw [View.canon_unit_zero zero4]
  simp only [View.ld_unit_zero (S := S8x301) zero2, View.ld_unit_zero (S := S1x301) zero2]
  obtain ⟨e0, e1, e2, e3, e4, e5, e6, e7⟩ := index_facts t
  refine funext fun (j : S8x4x301x12.Idx) => ?_
  obtain ⟨p, s, d, r, rfl⟩ : ∃ (p : Fin 8) (s : Fin 4) (d : Fin 301) (r : Fin 12), j = ix4 p s d r :=
    ⟨j 0, j 1, j 2, j 3, eq_ix4 j⟩
  show k1_pay1 (iblk1 V c 0 t) (iblk1 V c 1 t) (ix4 p s d r)
    = activate (V c main_v45) (V c main_v46) (((cfg1.win 2).blk t).view.emb (ix4 p s d r))
  refine (payload_apply _ _ p s d r).trans ?_
  show max (rowsIn V c (((cfg1.win 0).blk t).view.emb (ix2 p d))
      + biasIn V c (((cfg1.win 1).blk t).view.emb (ix2 (0 : Fin 1) d))) (Ideal.ofBits .f32 0x00000000#32)
    = activate (rowsIn V c) (biasIn V c) (((cfg1.win 2).blk t).view.emb (ix4 p s d r))
  unfold activate
  refine congrArg₂ (fun a b : EReal => max (a + b) (Ideal.ofBits .f32 0x00000000#32))
    (congrArg (rowsIn V c) ?_) (congrArg (biasIn V c) ?_)
  · funext a; apply Fin.ext
    match a with
    | ⟨0, _⟩ =>
      show win1_0.index t (0 : Fin 2) * 8 + 1 * p.val = win1_2.index t (0 : Fin 4) * 8 + 1 * p.val
      omega
    | ⟨1, _⟩ =>
      show win1_0.index t (1 : Fin 2) * 301 + 1 * d.val = win1_2.index t (2 : Fin 4) * 301 + 1 * d.val
      omega
  · funext a; apply Fin.ext
    match a with
    | ⟨0, _⟩ =>
      show win1_1.index t (0 : Fin 2) * 1 + 1 * 0 = 0
      omega
    | ⟨1, _⟩ =>
      show win1_1.index t (1 : Fin 2) * 301 + 1 * d.val = win1_2.index t (2 : Fin 4) * 301 + 1 * d.val
      omega

/-- An index of the output array is in point t's block iff each coordinate is in the block's range on its axis. -/
theorem mem_block (t : Fin cfg1.N) (i : S10000x4x301x12.Idx) :
    i ∈ ((cfg1.win 2).blk t).view.set ↔ ∀ a : Fin 4, win1_2.index t a * S8x4x301x12.size a ≤ (i a).val
      ∧ (i a).val < win1_2.index t a * S8x4x301x12.size a + S8x4x301x12.size a := by
  show i ∈ ((View.whole main_v47).slice (win1_2.rect t)).set ↔ _
  rw [View.set_slice_whole, Rect.mem_set_unit]
  exact Iff.rfl

/-- Every index of the output array is in some point's block: row n is in the block of point n / 8. -/
theorem covered (i : S10000x4x301x12.Idx) :
    ∃ t : Fin cfg1.N, (cfg1.win 2).flush t = true ∧ i ∈ ((cfg1.win 2).blk t).view.set := by
  have hi0 : (i 0).val < 10000 := (i 0).isLt
  have hi1 : (i 1).val < 4 := (i 1).isLt
  have hi2 : (i 2).val < 301 := (i 2).isLt
  have hi3 : (i 3).val < 12 := (i 3).isLt
  have hN : grid1.N = 1250 := N_1
  obtain ⟨t, ht⟩ : ∃ t : Fin cfg1.N, t.val = (i 0).val / 8 :=
    ⟨⟨(i 0).val / 8, by show (i 0).val / 8 < grid1.N; omega⟩, rfl⟩
  obtain ⟨e0, e1, e2, e3, e4, e5, e6, e7⟩ := index_facts t
  refine ⟨t, flush1_2 t, ?_⟩
  rw [mem_block]
  intro a
  match a with
  | ⟨0, _⟩ =>
    show win1_2.index t (0 : Fin 4) * 8 ≤ (i 0).val ∧ (i 0).val < win1_2.index t (0 : Fin 4) * 8 + 8
    omega
  | ⟨1, _⟩ =>
    show win1_2.index t (1 : Fin 4) * 4 ≤ (i 1).val ∧ (i 1).val < win1_2.index t (1 : Fin 4) * 4 + 4
    omega
  | ⟨2, _⟩ =>
    show win1_2.index t (2 : Fin 4) * 301 ≤ (i 2).val ∧ (i 2).val < win1_2.index t (2 : Fin 4) * 301 + 301
    omega
  | ⟨3, _⟩ =>
    show win1_2.index t (3 : Fin 4) * 12 ≤ (i 3).val ∧ (i 3).val < win1_2.index t (3 : Fin 4) * 12 + 12
    omega

/-- The output array after all 1250 points is `activate` of the two input arrays as the region finds them. -/
theorem array_eq (c : Dev nD) : (dat1 V c).arrAt 2 cfg1.N = activate (V c main_v45) (V c main_v46) :=
  (dat1 V c).arrAt_eq_of_cover 2 (activate (V c main_v45) (V c main_v46)) (fun t _ => block_eq V c t) covered

end

end Cert.KernelIdeal.Activation

end
-- ==== Proof.Project.lean ====
/-
  The projection region's output array, whatever the region finds in its two input arrays.

  The grid has 10 points; point t stages rows 1000t .. 1000t+999 of the node features and the whole weight matrix,
  and writes back rows 1000t .. 1000t+999 of the projected features. The body changes both staged blocks to a
  narrower float format — the identity on the extended reals — and multiplies them into a zero accumulator: entry
  (p, q) of what it stores is the sum over the 978 input features k of rows[p, k] * weights[k, q].

  So what point t writes back is block t of `proj` of the two input arrays, and since the 10 blocks of 1000 rows tile
  the 10000 rows, the output array ends holding `proj` of them, index by index: the sum for row n is taken inside the
  one block that holds row n, over the same 978 terms as the whole-array product takes.
-/
import proofs.«173048_j78546361909532_2_alg».proof.Proof.Gen.KernelIdeal.Frame
import proofs.«173048_j78546361909532_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)
open scoped BigOperators

/-- The body's contraction: rows [1000, 978] times weights [978, 301], contracting the rows' axis 1 with the
    weights' axis 0. -/
abbrev contraction := dot_S1000x978_S978x301_S1000x301_1_0_0_1_n_n

/-- The left operand is read at the output's row … -/
theorem lhs_row (i : S1000x301.Idx) (k : contraction.contr.Idx) : (contraction.lhsIdx i k 0).val = (i 0).val := by
  unfold DotDims.lhsIdx
  rw [dif_neg (show ¬(0 : Fin S1000x978.rank) ∈ contraction.lhsBatch by decide),
    dif_pos (show (0 : Fin S1000x978.rank) ∈ contraction.lhsNonContracting by decide)]
  rfl
/-- … and at the contracted index; -/
theorem lhs_contr (i : S1000x301.Idx) (k : contraction.contr.Idx) : (contraction.lhsIdx i k 1).val = (k ⟨0, by decide⟩).val :=
  contraction.lhsIdx_val_of_single rfl i k
/-- the right operand at the contracted index … -/
theorem rhs_contr (i : S1000x301.Idx) (k : contraction.contr.Idx) : (contraction.rhsIdx i k 0).val = (k ⟨0, by decide⟩).val :=
  contraction.rhsIdx_val_of_single rfl i k
/-- … and at the output's column. -/
theorem rhs_col (i : S1000x301.Idx) (k : contraction.contr.Idx) : (contraction.rhsIdx i k 1).val = (i 1).val := by
  unfold DotDims.rhsIdx
  rw [dif_neg (show ¬(1 : Fin S978x301.rank) ∈ contraction.rhsBatch by decide),
    dif_pos (show (1 : Fin S978x301.rank) ∈ contraction.rhsNonContracting by decide)]
  rfl

/-- What the body stores, at entry (p, q) of the staged block: the sum over k of the staged rows at (p, k) times the
    staged weights at (k, q). The change of float format before the product is the identity, and the accumulator the
    product starts from is zero. -/
theorem payload_apply (x0 : Vec Ideal S1000x978 .f32) (x1 : Vec Ideal S978x301 .f32) (p : Fin 1000) (q : Fin 301) :
    k0_pay1 (F := Ideal) x0 x1 (ix2 p q) = ∑ k : Fin 978, x0 (ix2 p k) * x1 (ix2 k q) := by
  unfold k0_pay1
  simp only [matmul]
  rw [Ideal.matmul_constant_zero_apply, ← Equiv.sum_comp (contrEquiv1 contraction 978 rfl rfl).symm]
  refine Finset.sum_congr rfl fun k _ => ?_
  have hk := contrEquiv1_symm_val contraction 978 rfl rfl k
  have el : contraction.lhsIdx (ix2 p q) ((contrEquiv1 contraction 978 rfl rfl).symm k) = ix2 p k :=
    funext fun a => Fin.ext (by
      match a with
      | ⟨0, _⟩ => exact lhs_row _ _
      | ⟨1, _⟩ => exact (lhs_contr _ _).trans hk)
  have er : contraction.rhsIdx (ix2 p q) ((contrEquiv1 contraction 978 rfl rfl).symm k) = ix2 k q :=
    funext fun a => Fin.ext (by
      match a with
      | ⟨0, _⟩ => exact (rhs_contr _ _).trans hk
      | ⟨1, _⟩ => exact rhs_col _ _)
  rw [el, er]
  rfl

theorem zero2 : (![0, 0] : Fin 2 → Nat) = fun _ => 0 := funext fun a => by fin_cases a <;> rfl

/-- The printed index maps over the grid: at point t the rows window and the output window sit at block t of their
    first axis and block 0 of the second, the weights window at block 0 of both. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The node features as the region finds them: an extended real per (node, input feature). -/
abbrev featIn (c : Dev nD) : S10000x978.Idx → EReal := V c main_arg0
/-- The weights as the region finds them: an extended real per (input feature, output feature). -/
abbrev weightIn (c : Dev nD) : S978x301.Idx → EReal := V c main_arg3

/-- What point t writes back is block t of `proj` of the two input arrays as the region finds them: the staged rows
    are rows 1000t + p of the features, the staged weights are the weights, and entry (p, q) of the block is entry
    (1000t + p, q) of the array. -/
theorem block_eq (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero zero2]
  simp only [View.ld_unit_zero (S := S1000x978) zero2, View.ld_unit_zero (S := S978x301) zero2]
  obtain ⟨e0, e1, e2, e3, e4, e5⟩ := index_facts t
  refine funext fun (j : S1000x301.Idx) => ?_
  obtain ⟨p, q, rfl⟩ : ∃ (p : Fin 1000) (q : Fin 301), j = ix2 p q := ⟨j 0, j 1, eq_ix2 j⟩
  show k0_pay1 (iblk0 V c 0 t) (iblk0 V c 1 t) (ix2 p q)
    = proj (V c main_arg0) (V c main_arg3) (((cfg0.win 2).blk t).view.emb (ix2 p q))
  refine (payload_apply _ _ p q).trans ?_
  unfold proj
  refine Finset.sum_congr rfl fun k _ => ?_
  show featIn V c (((cfg0.win 0).blk t).view.emb (ix2 p k)) * weightIn V c (((cfg0.win 1).blk t).view.emb (ix2 k q)) = _
  refine congrArg₂ (fun a b : EReal => a * b) (congrArg (featIn V c) ?_) (congrArg (weightIn V c) ?_)
  · funext a; apply Fin.ext
    match a with
    | ⟨0, _⟩ =>
      show win0_0.index t (0 : Fin 2) * 1000 + 1 * p.val = win0_2.index t (0 : Fin 2) * 1000 + 1 * p.val
      omega
    | ⟨1, _⟩ =>
      show win0_0.index t (1 : Fin 2) * 978 + 1 * k.val = k.val
      omega
  · funext a; apply Fin.ext
    match a with
    | ⟨0, _⟩ =>
      show win0_1.index t (0 : Fin 2) * 978 + 1 * k.val = k.val
      omega
    | ⟨1, _⟩ =>
      show win0_1.index t (1 : Fin 2) * 301 + 1 * q.val = win0_2.index t (1 : Fin 2) * 301 + 1 * q.val
      omega

/-- An index of the output array is in point t's block iff each coordinate is in the block's range on its axis. -/
theorem mem_block (t : Fin cfg0.N) (i : S10000x301.Idx) :
    i ∈ ((cfg0.win 2).blk t).view.set ↔ ∀ a : Fin 2, win0_2.index t a * S1000x301.size a ≤ (i a).val
      ∧ (i a).val < win0_2.index t a * S1000x301.size a + S1000x301.size a := by
  show i ∈ ((View.whole main_v32).slice (win0_2.rect t)).set ↔ _
  rw [View.set_slice_whole, Rect.mem_set_unit]
  exact Iff.rfl

/-- Every index of the output array is in some point's block: row n is in the block of point n / 1000. -/
theorem covered (i : S10000x301.Idx) :
    ∃ t : Fin cfg0.N, (cfg0.win 2).flush t = true ∧ i ∈ ((cfg0.win 2).blk t).view.set := by
  have hi0 : (i 0).val < 10000 := (i 0).isLt
  have hi1 : (i 1).val < 301 := (i 1).isLt
  have hN : grid0.N = 10 := N_0
  obtain ⟨t, ht⟩ : ∃ t : Fin cfg0.N, t.val = (i 0).val / 1000 :=
    ⟨⟨(i 0).val / 1000, by show (i 0).val / 1000 < grid0.N; omega⟩, rfl⟩
  obtain ⟨e0, e1, e2, e3, e4, e5⟩ := index_facts t
  refine ⟨t, flush0_2 t, ?_⟩
  rw [mem_block]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 301 ≤ (i 1).val ∧ (i 1).val < win0_2.index t (1 : Fin 2) * 301 + 301
    omega

/-- The output array after all 10 points is `proj` of the two input arrays as the region finds them. -/
theorem array_eq (c : Dev nD) : (dat0 V c).arrAt 2 cfg0.N = proj (V c main_arg0) (V c main_arg3) :=
  (dat0 V c).arrAt_eq_of_cover 2 (proj (V c main_arg0) (V c main_arg3)) (fun t _ => block_eq V c t) covered

end

end Cert.KernelIdeal.Projection

end
-- ==== Proof.KernelRun.lean ====
/-
  The idealized kernel's run with its result named.

  @main is six segments: three stretches of host operations (the edge lists with self-loops, the degree of every
  node, the symmetric normalisation of every edge), the projection region, one more stretch (gather the projected
  rows along the edges, scale, sum into the target nodes; reshape the bias to a row), and the activation region.
  The contents of every buffer at each boundary are a fold from the launch memory; at the last boundary the
  result buffer is the activation region's output array, which is what its write-backs leave once every grid point
  has run. Every weakly fair execution terminates there, nothing faulting, with the five argument arrays as
  launched.
-/
import proofs.«173048_j78546361909532_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the last boundary the result buffer holds the activation region's output array after all its grid points:
    the result is that region's third window. -/
theorem result_at_end (c : Dev nD) :
    W6 m ρ c (Proc.devRef .tc main_v47) = (dat1 (V5 m ρ) c).arrAt 2 cfg1.N := W6_arr m ρ c 2

set_option backward.isDefEq.respectTransparency.types false in
/-- Every weakly fair execution of @main terminates, nothing faulting, with the result buffer at the activation
    region's output array and the argument arrays as launched: the run over the six segments, the last thread
    state read against the final memory. -/
theorem run : θ_run defs (onTc (τ := τ) (main (F := F))) ⟨m, fun _ => 0, ρ⟩ (fun r => ∀ c : Dev nD,
      r.2.mem ((c.tc : Thread nD τ).loc main_v47) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v47 (by decide))).trans (result_at_end m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Result

end
-- ==== Proof.KernelValue.lean ====
/-
  The idealized kernel's result is the layer of the specification of its five arguments.

  The activation region's output array is `activate` of what the region finds: its aggregated features are
  `aggregateOf` of the edges' source nodes, target nodes and normalisation — the reference's own stages of the edge
  index and the edge weights — and of the projection region's output array, which is `proj` of the features and the
  weights as launched; its bias row is the bias vector as a row. Put together: `activate (aggregate … (proj x w)) b`.
-/
import proofs.«173048_j78546361909532_2_alg».proof.Proof.HostGlue
import proofs.«173048_j78546361909532_2_alg».proof.Proof.Activate
import proofs.«173048_j78546361909532_2_alg».proof.Proof.Project
import proofs.«173048_j78546361909532_2_alg».proof.Proof.KernelRun

set_option maxRecDepth 16384

noncomputable section

namespace Cert.KernelIdeal.Result

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-- The projection region leaves, in its output array, the projection of the features and the weights as launched. -/
theorem projected (c : Dev nD) :
    W4 m ρ c (Proc.devRef .tc main_v32)
      = proj (m ((c : Thread nD τ).loc main_arg0)) (m ((c : Thread nD τ).loc main_arg3)) := by
  have h : W4 m ρ c (Proc.devRef .tc main_v32) = (dat0 (V3 m ρ) c).arrAt 2 cfg0.N := W4_arr m ρ c 2
  rw [h, Projection.array_eq (V3 m ρ) c, HostSide.entry_features, HostSide.entry_weights]

/-- The activation region leaves, in its output array, the whole layer of the five arguments as launched. -/
theorem result_value (c : Dev nD) :
    (dat1 (V5 m ρ) c).arrAt 2 cfg1.N
      = activate (aggregate (F := Ideal) (m ((c : Thread nD τ).loc main_arg1)) (m ((c : Thread nD τ).loc main_arg2))
          (proj (m ((c : Thread nD τ).loc main_arg0)) (m ((c : Thread nD τ).loc main_arg3))))
        (Cert.ReferenceIdeal.Read.val_main_v46 (F := Ideal) (m ((c : Thread nD τ).loc main_arg4))) :=
  calc (dat1 (V5 m ρ) c).arrAt 2 cfg1.N
      = activate (V5 m ρ c main_v45) (V5 m ρ c main_v46) := Activation.array_eq (V5 m ρ) c
    _ = activate (aggregateOf (F := Ideal)
            (Cert.ReferenceIdeal.Read.val_main_v5 (F := Ideal) (m ((c : Thread nD τ).loc main_arg1)))
            (Cert.ReferenceIdeal.Read.val_main_v6 (F := Ideal) (m ((c : Thread nD τ).loc main_arg1)))
            (Cert.ReferenceIdeal.Read.val_main_v31 (F := Ideal) (m ((c : Thread nD τ).loc main_arg1)) (m ((c : Thread nD τ).loc main_arg2)))
            (proj (m ((c : Thread nD τ).loc main_arg0)) (m ((c : Thread nD τ).loc main_arg3))))
          (Cert.ReferenceIdeal.Read.val_main_v46 (F := Ideal) (m ((c : Thread nD τ).loc main_arg4))) := by
        rw [HostSide.entry_rows, HostSide.entry_bias, HostSide.exit_src, HostSide.exit_dst, HostSide.exit_nrm, projected]
    _ = _ := rfl

end Cert.KernelIdeal.Result

end
-- ==== Proof.lean ====
/-
  A graph-convolution layer: out[n, h, d, r] = max(agg[n, d] + b[d], 0) for every head h and repeat r, where
  agg = A · (x · W) — the node features x projected by the weights W, then summed along the graph's edges (self-loops
  added) with the symmetric normalisation A[t, s] = sum over edges s → t of w_e / sqrt(deg s · deg t).

  The kernel computes x · W in a pipelined region, 1000 rows at a time, through a narrower float format and a
  matrix unit; applies A on the host; and adds the bias, cuts at zero and repeats over heads and repeats in a second
  region, 8 nodes at a time. The reference does all of it on the host. On the extended reals a change of float
  format is the identity and both products are the same sum over the 978 input features, so the two projections
  agree entry by entry; the edge aggregation is the same operations in both programs and is carried as one function of
  the projection; and both last steps read agg[n, d] and b[d] at the same places. The two results are therefore one
  array (`algebraic`). Nothing in this uses that the inputs are finite.

  Each program also runs to the end from any launch memory without a fault and leaves its arguments as launched (the
  three frames); the idealized kernel is the kernel's own text read on the extended reals, no operation rewritten
  (`preserves`).

  Proof/Spec.lean states the layer's two index-wise functions; Proof/RefStages.lean reads the reference's run back as
  them; Proof/Project.lean and Proof/Activate.lean read each region's output array off its grid points;
  Proof/HostGlue.lean reads the kernel's host operations; Proof/KernelRun.lean and Proof/KernelValue.lean put the
  kernel's run and its result together; Proof/LibKeepdims4.lean holds the two layout facts the activation uses.
-/
import proofs.«173048_j78546361909532_2_alg».proof.Defs
import proofs.«173048_j78546361909532_2_alg».proof.Proof.Gen.Kernel
import proofs.«173048_j78546361909532_2_alg».proof.Proof.Gen.Kernel.Frame
import proofs.«173048_j78546361909532_2_alg».proof.Proof.Gen.KernelIdeal
import proofs.«173048_j78546361909532_2_alg».proof.Proof.Gen.KernelIdeal.Frame
import proofs.«173048_j78546361909532_2_alg».proof.Proof.Gen.ReferenceIdeal
import proofs.«173048_j78546361909532_2_alg».proof.Proof.Gen.ReferenceIdeal.Run
import proofs.«173048_j78546361909532_2_alg».proof.Proof.Gen.ReferenceIdeal.Read
import proofs.«173048_j78546361909532_2_alg».proof.Proof.Gen.Pre_finite_inputs
import proofs.«173048_j78546361909532_2_alg».proof.Proof.RefStages
import proofs.«173048_j78546361909532_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their result
    buffer: the kernel by its run and `result_value`, the reference by its run and `ref_value`. -/
theorem algebraic : Cert.algebraic_KernelIdeal_ReferenceIdeal := by
  intro m ρ m' ρ' _ hagree
  refine ⟨fun c => Cert.Gcn.activate
      (Cert.Gcn.aggregate (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (Cert.Gcn.proj (m ((c.tc : Thread Cert.KernelIdeal.nD Cert.KernelIdeal.τ).loc Cert.KernelIdeal.main_arg0))
          (m ((c.tc : Thread Cert.KernelIdeal.nD Cert.KernelIdeal.τ).loc Cert.KernelIdeal.main_arg3))))
      (Cert.ReferenceIdeal.Read.val_main_v46 (F := Ideal)
        (m ((c.tc : Thread Cert.KernelIdeal.nD Cert.KernelIdeal.τ).loc Cert.KernelIdeal.main_arg4))), ?_, ?_⟩
  · exact (θ_run Cert.KernelIdeal.defs _ _).mono
      (fun _ h c => ⟨(h c).1.trans (Cert.KernelIdeal.Result.result_value m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.Gcn.ref_value, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
